-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x8x256x256 : Shape := ⟨4, ![8, 8, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x8x256x256 : S_.BroadcastsInDim S8x8x256x256 (![] : Fin 0 → Fin S8x8x256x256.rank)
  reducesTo_S8x8x256x256_S_d0_1_2_3 : S8x8x256x256.ReducesTo [0, 1, 2, 3] S_

variable [Facts]

def fn {F : FTy → Type} [FloatOps F] (main_arg0 : FVec F S8x64x256x256 .f32) (main_arg1 : FVec F S8x8x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x8x256x256 .f32 := Host.absf main_arg1
  let main_cst_0 : FVec F S_ .f32 := constant S_ .f32 0x7F800000#32
  let main_v5 : FVec F S8x8x256x256 .f32 := broadcastInDim S8x8x256x256 ![] bcast_S_S8x8x256x256 main_cst_0
  let main_v6 : IVec S8x8x256x256 1 := cmpf .olt main_v4 main_v5
  let main_c_1 : IVec S_ 1 := constantI S_ 1 1#1
  let main_v7 : IVec S_ 1 := (fun x v => Host.reduce IntOp.andi x v reducesTo_S8x8x256x256_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x8x256x256 : Shape := ⟨4, ![8, 8, 256, 256]⟩
abbrev S1x32x256x256 : Shape := ⟨4, ![1, 32, 256, 256]⟩
abbrev S1x8x256x256 : Shape := ⟨4, ![1, 8, 256, 256]⟩
abbrev S32x256x256 : Shape := ⟨3, ![32, 256, 256]⟩
abbrev S32x1x256 : Shape := ⟨3, ![32, 1, 256]⟩
abbrev S32x258x256 : Shape := ⟨3, ![32, 258, 256]⟩
abbrev S32x258x1 : Shape := ⟨3, ![32, 258, 1]⟩
abbrev S32x258x258 : Shape := ⟨3, ![32, 258, 258]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S8x8x256x256, .f32⟩
  | .hbm, ⟨2, _⟩ => ⟨S8x64x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S1x8x256x256, .f32⟩
  | .local _ .vmem, ⟨3, _⟩ => ⟨S1x8x256x256, .f32⟩
  | .local _ .vmem, ⟨4, _⟩ => ⟨S1x32x256x256, .f32⟩
  | .local _ .vmem, ⟨5, _⟩ => ⟨S1x32x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x256x256_S1x32x256x256_0_0_0_0 : ∀ a, (![0, 0, 0, 0] : Fin 4 → Nat) a + S1x32x256x256.size a ≤ S1x32x256x256.size a
  h_S1x32x256x256 : 0 < S1x32x256x256.numel
  shapeCasts_S1x32x256x256_S32x256x256 : S1x32x256x256.ShapeCasts S32x256x256
  concatenates_S32x1x256_S32x256x256_S32x1x256_S32x258x256_d1 : Shape.Concatenates [S32x1x256, S32x256x256, S32x1x256] S32x258x256 1
  concatenates_S32x258x1_S32x258x256_S32x258x1_S32x258x258_d2 : Shape.Concatenates [S32x258x1, S32x258x256, S32x258x1] S32x258x258 2
  inb_S1x8x256x256_S1x1x256x256_0_0_0_0 : ∀ a, (![0, 0, 0, 0] : Fin 4 → Nat) a + S1x1x256x256.size a ≤ S1x8x256x256.size a
  h_S1x1x256x256 : 0 < S1x1x256x256.numel
  shapeCasts_S1x1x256x256_S256x256 : S1x1x256x256.ShapeCasts S256x256
  shapeCasts_S256x256_S1x256x256 : S256x256.ShapeCasts S1x256x256
  slices_S32x258x258_o0_0_0_S32x256x256 : S32x258x258.Slices ![0, 0, 0] S32x256x256
  broadcasts_S1x256x256_S32x256x256 : S1x256x256.Broadcasts S32x256x256
  inb_S1x8x256x256_S1x1x256x256_0_1_0_0 : ∀ a, (![0, 1, 0, 0] : Fin 4 → Nat) a + S1x1x256x256.size a ≤ S1x8x256x256.size a
  slices_S32x258x258_o0_0_1_S32x256x256 : S32x258x258.Slices ![0, 0, 1] S32x256x256
  inb_S1x8x256x256_S1x1x256x256_0_2_0_0 : ∀ a, (![0, 2, 0, 0] : Fin 4 → Nat) a + S1x1x256x256.size a ≤ S1x8x256x256.size a
  slices_S32x258x258_o0_0_2_S32x256x256 : S32x258x258.Slices ![0, 0, 2] S32x256x256
  inb_S1x8x256x256_S1x1x256x256_0_3_0_0 : ∀ a, (![0, 3, 0, 0] : Fin 4 → Nat) a + S1x1x256x256.size a ≤ S1x8x256x256.size a
  slices_S32x258x258_o0_1_0_S32x256x256 : S32x258x258.Slices ![0, 1, 0] S32x256x256
  inb_S1x8x256x256_S1x1x256x256_0_4_0_0 : ∀ a, (![0, 4, 0, 0] : Fin 4 → Nat) a + S1x1x256x256.size a ≤ S1x8x256x256.size a
  slices_S32x258x258_o0_1_2_S32x256x256 : S32x258x258.Slices ![0, 1, 2] S32x256x256
  inb_S1x8x256x256_S1x1x256x256_0_5_0_0 : ∀ a, (![0, 5, 0, 0] : Fin 4 → Nat) a + S1x1x256x256.size a ≤ S1x8x256x256.size a
  slices_S32x258x258_o0_2_0_S32x256x256 : S32x258x258.Slices ![0, 2, 0] S32x256x256
  inb_S1x8x256x256_S1x1x256x256_0_6_0_0 : ∀ a, (![0, 6, 0, 0] : Fin 4 → Nat) a + S1x1x256x256.size a ≤ S1x8x256x256.size a
  slices_S32x258x258_o0_2_1_S32x256x256 : S32x258x258.Slices ![0, 2, 1] S32x256x256
  inb_S1x8x256x256_S1x1x256x256_0_7_0_0 : ∀ a, (![0, 7, 0, 0] : Fin 4 → Nat) a + S1x1x256x256.size a ≤ S1x8x256x256.size a
  slices_S32x258x258_o0_2_2_S32x256x256 : S32x258x258.Slices ![0, 2, 2] S32x256x256
  shapeCasts_S32x256x256_S1x32x256x256 : S32x256x256.ShapeCasts S1x32x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S8x64x256x256.size a
  hwx0_0 : ∀ i : grid0.Coords, EltTy.bits .f32 = 32 ∨ (Rect.block (s := S8x64x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256x256.size a ≤ S8x8x256x256.size a
  hwx0_1 : ∀ i : grid0.Coords, EltTy.bits .f32 = 32 ∨ (Rect.block (s := S8x8x256x256) S1x8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256x256.size a ≤ S8x64x256x256.size a
  hwx0_2 : ∀ i : grid0.Coords, EltTy.bits .f32 = 32 ∨ (Rect.block (s := S8x64x256x256) S1x32x256x256.size (cc0_transform_2 i) (hinb0_2 i)).WholeWords (EltTy.packing .f32)

variable [Facts₀]

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x8x256x256 : Shape := ⟨4, ![8, 8, 256, 256]⟩
abbrev S_ : Shape := ⟨0, ![]⟩
abbrev S8x64x258x258 : Shape := ⟨4, ![8, 64, 258, 258]⟩
abbrev S8x1x256x256 : Shape := ⟨4, ![8, 1, 256, 256]⟩
abbrev S8x256x256 : Shape := ⟨3, ![8, 256, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x8x256x256, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S8x64x256x256, .f32⟩
  | .hbm, ⟨6, _⟩ => ⟨S8x1x256x256, .f32⟩
  | .hbm, ⟨7, _⟩ => ⟨S8x256x256, .f32⟩
  | .hbm, ⟨8, _⟩ => ⟨S8x1x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S8x1x256x256, .f32⟩
  | .hbm, ⟨14, _⟩ => ⟨S8x256x256, .f32⟩
  | .hbm, ⟨15, _⟩ => ⟨S8x1x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S8x64x256x256, .f32⟩
  | .hbm, ⟨20, _⟩ => ⟨S8x1x256x256, .f32⟩
  | .hbm, ⟨21, _⟩ => ⟨S8x256x256, .f32⟩
  | .hbm, ⟨22, _⟩ => ⟨S8x1x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S8x1x256x256, .f32⟩
  | .hbm, ⟨28, _⟩ => ⟨S8x256x256, .f32⟩
  | .hbm, ⟨29, _⟩ => ⟨S8x1x256x256, .f32⟩
  | .hbm, ⟨30, _⟩ => ⟨S8x64x256x256, .f32⟩
  | .hbm, ⟨31, _⟩ => ⟨S8x64x256x256, .f32⟩
  | .hbm, ⟨32, _⟩ => ⟨S8x64x256x256, .f32⟩
  | .hbm, ⟨33, _⟩ => ⟨S8x64x256x256, .f32⟩
  | .hbm, ⟨34, _⟩ => ⟨S8x1x256x256, .f32⟩
  | .hbm, ⟨35, _⟩ => ⟨S8x256x256, .f32⟩
  | .hbm, ⟨36, _⟩ => ⟨S8x1x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | .hbm, ⟨40, _⟩ => ⟨S8x64x256x256, .f32⟩
  | .hbm, ⟨41, _⟩ => ⟨S8x1x256x256, .f32⟩
  | .hbm, ⟨42, _⟩ => ⟨S8x256x256, .f32⟩
  | .hbm, ⟨43, _⟩ => ⟨S8x1x256x256, .f32⟩
  | .hbm, ⟨44, _⟩ => ⟨S8x64x256x256, .f32⟩
  | .hbm, ⟨45, _⟩ => ⟨S8x64x256x256, .f32⟩
  | .hbm, ⟨46, _⟩ => ⟨S8x64x256x256, .f32⟩
  | .hbm, ⟨47, _⟩ => ⟨S8x64x256x256, .f32⟩
  | .hbm, ⟨48, _⟩ => ⟨S8x1x256x256, .f32⟩
  | .hbm, ⟨49, _⟩ => ⟨S8x256x256, .f32⟩
  | .hbm, ⟨50, _⟩ => ⟨S8x1x256x256, .f32⟩
  | .hbm, ⟨51, _⟩ => ⟨S8x64x256x256, .f32⟩
  | .hbm, ⟨52, _⟩ => ⟨S8x64x256x256, .f32⟩
  | .hbm, ⟨53, _⟩ => ⟨S8x64x256x256, .f32⟩
  | .hbm, ⟨54, _⟩ => ⟨S8x64x256x256, .f32⟩
  | .hbm, ⟨55, _⟩ => ⟨S8x1x256x256, .f32⟩
  | .hbm, ⟨56, _⟩ => ⟨S8x256x256, .f32⟩
  | .hbm, ⟨57, _⟩ => ⟨S8x1x256x256, .f32⟩
  | .hbm, ⟨58, _⟩ => ⟨S8x64x256x256, .f32⟩
  | .hbm, ⟨59, _⟩ => ⟨S8x64x256x256, .f32⟩
  | .hbm, ⟨60, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  slices_S8x64x258x258_S8x64x256x256_0_0_0_0 : S8x64x258x258.Slices ![0, 0, 0, 0] S8x64x256x256
  slices_S8x8x256x256_S8x1x256x256_0_0_0_0 : S8x8x256x256.Slices ![0, 0, 0, 0] S8x1x256x256
  shapeCasts_S8x1x256x256_S8x256x256 : S8x1x256x256.ShapeCasts S8x256x256
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  slices_S8x64x258x258_S8x64x256x256_0_0_0_1 : S8x64x258x258.Slices ![0, 0, 0, 1] S8x64x256x256
  slices_S8x8x256x256_S8x1x256x256_0_1_0_0 : S8x8x256x256.Slices ![0, 1, 0, 0] S8x1x256x256
  slices_S8x64x258x258_S8x64x256x256_0_0_0_2 : S8x64x258x258.Slices ![0, 0, 0, 2] S8x64x256x256
  slices_S8x8x256x256_S8x1x256x256_0_2_0_0 : S8x8x256x256.Slices ![0, 2, 0, 0] S8x1x256x256
  slices_S8x64x258x258_S8x64x256x256_0_0_1_0 : S8x64x258x258.Slices ![0, 0, 1, 0] S8x64x256x256
  slices_S8x8x256x256_S8x1x256x256_0_3_0_0 : S8x8x256x256.Slices ![0, 3, 0, 0] S8x1x256x256
  slices_S8x64x258x258_S8x64x256x256_0_0_1_2 : S8x64x258x258.Slices ![0, 0, 1, 2] S8x64x256x256
  slices_S8x8x256x256_S8x1x256x256_0_4_0_0 : S8x8x256x256.Slices ![0, 4, 0, 0] S8x1x256x256
  slices_S8x64x258x258_S8x64x256x256_0_0_2_0 : S8x64x258x258.Slices ![0, 0, 2, 0] S8x64x256x256
  slices_S8x8x256x256_S8x1x256x256_0_5_0_0 : S8x8x256x256.Slices ![0, 5, 0, 0] S8x1x256x256
  slices_S8x64x258x258_S8x64x256x256_0_0_2_1 : S8x64x258x258.Slices ![0, 0, 2, 1] S8x64x256x256
  slices_S8x8x256x256_S8x1x256x256_0_6_0_0 : S8x8x256x256.Slices ![0, 6, 0, 0] S8x1x256x256
  slices_S8x64x258x258_S8x64x256x256_0_0_2_2 : S8x64x258x258.Slices ![0, 0, 2, 2] S8x64x256x256
  slices_S8x8x256x256_S8x1x256x256_0_7_0_0 : S8x8x256x256.Slices ![0, 7, 0, 0] S8x1x256x256

variable [Facts₀]

class Facts : Prop extends Facts₀ where

variable [Facts]
-- ==== Proof.Spec.lean ====
/-
  The function both programs compute, stated once with no program in sight.

  A feature map `x` of shape [8, 64, 256, 256] (batch, channel, row, column) and eight affinity planes `g` of shape
  [8, 8, 256, 256] (batch, direction, row, column). Put a border of one entry `z` around every 256 × 256 plane of `x`;
  call the bordered plane's entry at row `r`, column `s` (both in 0 … 257) `bordered z x b c r s`: it is
  `x b c (r - 1) (s - 1)` when `1 ≤ r, s ≤ 256` and `z` on the border. The eight neighbours of entry `(h, w)` of the plane
  are then the bordered plane's entries at `(h + dy, w + dx)` for `(dy, dx)` in
      (0,0) (0,1) (0,2) (1,0) (1,2) (2,0) (2,1) (2,2),
  the centre `(1,1)` left out, and the result is

      out b c h w = x b c h w + Σ_d  bordered z x b c (h + dy_d) (w + dx_d) · g b d h w,

  the eight products added onto `x b c h w` one after the other in the order listed (the order matters only in that both
  programs use it: no law of arithmetic is needed to join them, so the statement holds for any float operations).
-/
import Idealize.ShloMosaic.PureOps.Ideal
import Idealize.ShloMosaic.Lib.ValueIdx

noncomputable section

namespace Cert.Fusion

open Idealize.ShloMosaic Idealize.ShloMosaic.ValueIdx

/-- The feature map's shape: batch, channel, row, column. -/
abbrev Feat : Shape := ⟨4, ![8, 64, 256, 256]⟩
/-- The affinity planes' shape: batch, direction, row, column. -/
abbrev Aff : Shape := ⟨4, ![8, 8, 256, 256]⟩

section Border
variable {α : Type}

/-- Entry `(r, s)` of plane `(b, c)` of `x` after a border of one `z` on every side: `x b c (r - 1) (s - 1)` for
    `1 ≤ r, s ≤ 256`, and `z` elsewhere. -/
def bordered (z : α) (x : Feat.Idx → α) (b : Fin 8) (c : Fin 64) (r s : Nat) : α :=
  if h : (1 ≤ r ∧ r ≤ 256) ∧ (1 ≤ s ∧ s ≤ 256) then
    x (ix4 b c ⟨r - 1, by omega⟩ ⟨s - 1, by omega⟩)
  else z

/-- Off the border the bordered plane is the plane, moved by one row and one column. -/
theorem bordered_inside (z : α) (x : Feat.Idx → α) (b : Fin 8) (c : Fin 64) (h w : Fin 256) :
    bordered z x b c (h.val + 1) (w.val + 1) = x (ix4 b c h w) := by
  unfold bordered
  have hh : h.val < 256 := h.isLt
  have hw : w.val < 256 := w.isLt
  rw [dif_pos ⟨⟨by omega, by omega⟩, by omega, by omega⟩]
  refine congrArg x (funext fun a => ?_)
  match a with
  | ⟨0, _⟩ => rfl
  | ⟨1, _⟩ => rfl
  | ⟨2, _⟩ => exact Fin.ext (by show h.val + 1 - 1 = h.val; omega)
  | ⟨3, _⟩ => exact Fin.ext (by show w.val + 1 - 1 = w.val; omega)

/-- On the border — row 0 or 257, or column 0 or 257 (or beyond) — the bordered plane is `z`. -/
theorem bordered_border (z : α) (x : Feat.Idx → α) (b : Fin 8) (c : Fin 64) (r s : Nat)
    (h : r = 0 ∨ 257 ≤ r ∨ s = 0 ∨ 257 ≤ s) : bordered z x b c r s = z := by
  unfold bordered
  rw [dif_neg (by omega)]

end Border

variable {F : FTy → Type} [FloatOps F]

/-- One neighbour's contribution at `(b, c, h, w)`: the bordered plane's entry at `(r, s)` times direction `d`'s affinity at
    `(h, w)`. -/
def contrib (z : F .f32) (x : Feat.Idx → F .f32) (g : Aff.Idx → F .f32) (b : Fin 8) (c : Fin 64) (h w : Fin 256)
    (d : Fin 8) (r s : Nat) : F .f32 :=
  FloatOps.mulf (bordered z x b c r s) (g (ix4 b d h w))

/-- The result at `(b, c, h, w)`: the entry itself plus its eight neighbours' contributions, added in the directions' order. -/
def fusedAt (z : F .f32) (x : Feat.Idx → F .f32) (g : Aff.Idx → F .f32) (b : Fin 8) (c : Fin 64) (h w : Fin 256) : F .f32 :=
  FloatOps.addf (FloatOps.addf (FloatOps.addf (FloatOps.addf (FloatOps.addf (FloatOps.addf (FloatOps.addf (FloatOps.addf
    (x (ix4 b c h w))
    (contrib z x g b c h w 0 h.val w.val))
    (contrib z x g b c h w 1 h.val (w.val + 1)))
    (contrib z x g b c h w 2 h.val (w.val + 2)))
    (contrib z x g b c h w 3 (h.val + 1) w.val))
    (contrib z x g b c h w 4 (h.val + 1) (w.val + 2)))
    (contrib z x g b c h w 5 (h.val + 2) w.val))
    (contrib z x g b c h w 6 (h.val + 2) (w.val + 1)))
    (contrib z x g b c h w 7 (h.val + 2) (w.val + 2))

/-- The whole result array. -/
def fused (z : F .f32) (x : Feat.Idx → F .f32) (g : Aff.Idx → F .f32) : Feat.Idx → F .f32 :=
  fun i => fusedAt z x g (i 0) (i 1) (i 2) (i 3)

theorem fused_apply (z : F .f32) (x : Feat.Idx → F .f32) (g : Aff.Idx → F .f32) (b : Fin 8) (c : Fin 64) (h w : Fin 256) :
    fused z x g (ix4 b c h w) = fusedAt z x g b c h w := rfl

end Cert.Fusion

end
-- ==== Proof.Padded.lean ====
/-
  The kernel's bordered block, read at an index.

  The body takes its block `P` of the feature map, of shape [1, 32, 256, 256], drops the unit axis, lays a row of zeros above
  and below every 256 × 256 plane (a concatenation of three pieces along the rows: extents 1, 256, 1) and then a column of
  zeros left and right of the result (three pieces along the columns: extents 1, 256, 1). Read at plane `c`, row `r`,
  column `s` (`r`, `s` in 0 … 257) the outcome is `P 0 c (r - 1) (s - 1)` when `1 ≤ r, s ≤ 256` — the middle piece of both
  concatenations — and the zero otherwise — an outer piece of one of them. Put together: when the block is the planes
  `C` of batch `b` of a whole map `X`, the outcome is `X`'s bordered plane of Spec.lean.
-/
import proofs.«105712_j52501680227014_1_alg».proof.Proof.Gen.KernelIdeal.Skeleton
import proofs.«105712_j52501680227014_1_alg».proof.Proof.Spec
import Idealize.ShloMosaic.Lib.Pipeline.Value
import Idealize.ShloMosaic.Lib.ValueIdx

noncomputable section

namespace Cert.KernelIdeal.Padded

open Cert.KernelIdeal Cert.KernelIdeal.Gen Cert.Fusion Idealize.ShloMosaic Idealize.ShloMosaic.ValueIdx

variable {F : FTy → Type} [FloatOps F]

/-! ## A row of `z` above and below -/

/-- Rows 1 … 256 of the three pieces laid along the rows are the middle piece's rows 0 … 255. -/
theorem rows_mid (z : F .f32) (X : FVec F S32x256x256 .f32) (c : Fin 32) (h : Fin 256) (w : Fin 256) (r : Fin 258)
    (hr : r.val = h.val + 1) :
    concatenate S32x258x256 1 [⟨S32x1x256, broadcast S32x1x256 z⟩, ⟨S32x256x256, X⟩, ⟨S32x1x256, broadcast S32x1x256 z⟩]
      concatenates_S32x1x256_S32x256x256_S32x1x256_S32x258x256_d1 (ix3 c r w) = X (ix3 c h w) :=
  concatenate_apply_piece 1 _ _ (ix3 c r w) 1 (by show (1 : Nat) < 3; omega) S32x256x256 X rfl rfl 1 rfl (ix3 c h w)
    (fun b hb => match b with | ⟨0, _⟩ => rfl | ⟨1, _⟩ => absurd rfl hb | ⟨2, _⟩ => rfl)
    (by show 1 + h.val = r.val; omega)

/-- Row 0 and row 257 are the outer pieces: `z`. -/
theorem rows_edge (z : F .f32) (X : FVec F S32x256x256 .f32) (c : Fin 32) (r : Fin 258) (w : Fin 256)
    (hr : r.val = 0 ∨ r.val = 257) :
    concatenate S32x258x256 1 [⟨S32x1x256, broadcast S32x1x256 z⟩, ⟨S32x256x256, X⟩, ⟨S32x1x256, broadcast S32x1x256 z⟩]
      concatenates_S32x1x256_S32x256x256_S32x1x256_S32x258x256_d1 (ix3 c r w) = z := by
  rcases hr with h0 | h1
  · exact concatenate_apply_piece 1 _ _ (ix3 c r w) 0 (by show (0 : Nat) < 3; omega) S32x1x256 (broadcast S32x1x256 z) rfl rfl 0 rfl (ix3 c 0 w)
      (fun b hb => match b with | ⟨0, _⟩ => rfl | ⟨1, _⟩ => absurd rfl hb | ⟨2, _⟩ => rfl)
      (by show 0 + 0 = r.val; omega)
  · exact concatenate_apply_piece 1 _ _ (ix3 c r w) 2 (by show (2 : Nat) < 3; omega) S32x1x256 (broadcast S32x1x256 z) rfl rfl 257 rfl (ix3 c 0 w)
      (fun b hb => match b with | ⟨0, _⟩ => rfl | ⟨1, _⟩ => absurd rfl hb | ⟨2, _⟩ => rfl)
      (by show 257 + 0 = r.val; omega)

/-! ## A column of `z` left and right -/

/-- Columns 1 … 256 of the three pieces laid along the columns are the middle piece's columns 0 … 255. -/
theorem cols_mid (z : F .f32) (Y : FVec F S32x258x256 .f32) (c : Fin 32) (r : Fin 258) (w : Fin 256) (s : Fin 258)
    (hs : s.val = w.val + 1) :
    concatenate S32x258x258 2 [⟨S32x258x1, broadcast S32x258x1 z⟩, ⟨S32x258x256, Y⟩, ⟨S32x258x1, broadcast S32x258x1 z⟩]
      concatenates_S32x258x1_S32x258x256_S32x258x1_S32x258x258_d2 (ix3 c r s) = Y (ix3 c r w) :=
  concatenate_apply_piece 2 _ _ (ix3 c r s) 1 (by show (1 : Nat) < 3; omega) S32x258x256 Y rfl rfl 1 rfl (ix3 c r w)
    (fun b hb => match b with | ⟨0, _⟩ => rfl | ⟨1, _⟩ => rfl | ⟨2, _⟩ => absurd rfl hb)
    (by show 1 + w.val = s.val; omega)

/-- Column 0 and column 257 are the outer pieces: `z`. -/
theorem cols_edge (z : F .f32) (Y : FVec F S32x258x256 .f32) (c : Fin 32) (r : Fin 258) (s : Fin 258)
    (hs : s.val = 0 ∨ s.val = 257) :
    concatenate S32x258x258 2 [⟨S32x258x1, broadcast S32x258x1 z⟩, ⟨S32x258x256, Y⟩, ⟨S32x258x1, broadcast S32x258x1 z⟩]
      concatenates_S32x258x1_S32x258x256_S32x258x1_S32x258x258_d2 (ix3 c r s) = z := by
  rcases hs with h0 | h1
  · exact concatenate_apply_piece 2 _ _ (ix3 c r s) 0 (by show (0 : Nat) < 3; omega) S32x258x1 (broadcast S32x258x1 z) rfl rfl 0 rfl (ix3 c r 0)
      (fun b hb => match b with | ⟨0, _⟩ => rfl | ⟨1, _⟩ => rfl | ⟨2, _⟩ => absurd rfl hb)
      (by show 0 + 0 = s.val; omega)
  · exact concatenate_apply_piece 2 _ _ (ix3 c r s) 2 (by show (2 : Nat) < 3; omega) S32x258x1 (broadcast S32x258x1 z) rfl rfl 257 rfl (ix3 c r 0)
      (fun b hb => match b with | ⟨0, _⟩ => rfl | ⟨1, _⟩ => rfl | ⟨2, _⟩ => absurd rfl hb)
      (by show 257 + 0 = s.val; omega)

/-! ## The body's bordered block -/

/-- Inside the border: the block's entry one row up and one column left. -/
theorem pay3_inside (P : Vec F S1x32x256x256 .f32) (c : Fin 32) (h w : Fin 256) (r s : Fin 258)
    (hr : r.val = h.val + 1) (hs : s.val = w.val + 1) :
    k0_pay3 P (ix3 c r s) = P (ix4 0 c h w) := by
  unfold k0_pay3 k0_pay2
  refine (cols_mid _ _ c r w s hs).trans ?_
  refine (rows_mid _ _ c h w r hr).trans ?_
  exact shapeCast_apply P shapeCasts_S1x32x256x256_S32x256x256 (ix3 c h w) (ix4 0 c h w)
    (by rw [Shape.rowMajor_val_four, Shape.rowMajor_val_three]
        show ((0 * 32 + c.val) * 256 + h.val) * 256 + w.val = (c.val * 256 + h.val) * 256 + w.val
        omega)

/-- On the border: the body's zero. -/
theorem pay3_border (P : Vec F S1x32x256x256 .f32) (c : Fin 32) (r s : Fin 258)
    (h : r.val = 0 ∨ r.val = 257 ∨ s.val = 0 ∨ s.val = 257) :
    k0_pay3 P (ix3 c r s) = Scalar.ofBits .f32 0x00000000#32 := by
  unfold k0_pay3 k0_pay2
  by_cases hs : s.val = 0 ∨ s.val = 257
  · exact cols_edge _ _ c r s hs
  · have hs' : s.val < 258 := s.isLt
    have hr : r.val = 0 ∨ r.val = 257 := by omega
    refine (cols_mid _ _ c r ⟨s.val - 1, by omega⟩ s (by show s.val = s.val - 1 + 1; omega)).trans ?_
    exact rows_edge _ _ c r _ hr

/-- THE BORDERED BLOCK IS THE MAP'S BORDERED PLANE: when the block's plane `c` is plane `C` of batch `b` of a whole map `X`,
    the body's bordered block at `(c, r, s)` is `X`'s bordered plane `(b, C)` at `(r, s)`, the border's entry the body's zero. -/
theorem pay3_bordered (X : Feat.Idx → F .f32) (P : Vec F S1x32x256x256 .f32) (b : Fin 8) (c : Fin 32) (C : Fin 64)
    (hP : ∀ h w : Fin 256, P (ix4 0 c h w) = X (ix4 b C h w)) (r s : Fin 258) :
    k0_pay3 P (ix3 c r s) = bordered (Scalar.ofBits .f32 0x00000000#32) X b C r.val s.val := by
  have hr' : r.val < 258 := r.isLt
  have hs' : s.val < 258 := s.isLt
  by_cases hb : r.val = 0 ∨ r.val = 257 ∨ s.val = 0 ∨ s.val = 257
  · rw [pay3_border P c r s hb, bordered_border _ _ _ _ _ _ (by omega)]
  · have e := bordered_inside (Scalar.ofBits .f32 0x00000000#32 : F .f32) X b C ⟨r.val - 1, by omega⟩ ⟨s.val - 1, by omega⟩
    rw [show (⟨r.val - 1, by omega⟩ : Fin 256).val + 1 = r.val from by show r.val - 1 + 1 = r.val; omega,
      show (⟨s.val - 1, by omega⟩ : Fin 256).val + 1 = s.val from by show s.val - 1 + 1 = s.val; omega] at e
    rw [e, ← hP]
    exact pay3_inside P c ⟨r.val - 1, by omega⟩ ⟨s.val - 1, by omega⟩ r s (by show r.val = r.val - 1 + 1; omega)
      (by show s.val = s.val - 1 + 1; omega)

/-- The same at any index, given its coordinates. -/
theorem pay3_at (X : Feat.Idx → F .f32) (P : Vec F S1x32x256x256 .f32) (b : Fin 8) (c : Fin 32) (C : Fin 64)
    (hP : ∀ h w : Fin 256, P (ix4 0 c h w) = X (ix4 b C h w)) (j : S32x258x258.Idx) (r s : Nat)
    (h0 : (j 0).val = c.val) (h1 : (j 1).val = r) (h2 : (j 2).val = s) :
    k0_pay3 P j = bordered (Scalar.ofBits .f32 0x00000000#32) X b C r s := by
  obtain ⟨c0, r0, s0, rfl⟩ : ∃ (c0 : Fin 32) (r0 s0 : Fin 258), j = ix3 c0 r0 s0 := ⟨j 0, j 1, j 2, eq_ix3 j⟩
  obtain rfl : c0 = c := Fin.ext h0
  subst h1 h2
  exact pay3_bordered X P b c0 C hP r0 s0

end Cert.KernelIdeal.Padded

end
-- ==== Proof.Block.lean ====
/-
  The kernel computes the function of Spec.lean.

  The grid has 16 points `(b, cb)`, `b` one of 8 batches and `cb` one of 2 halves of the 64 channels. At a point the body is
  given planes `32·cb … 32·cb + 31` of batch `b` of the feature map (a block [1, 32, 256, 256]) and the eight affinity planes
  of batch `b` (a block [1, 8, 256, 256]), and stores one block [1, 32, 256, 256] of the result. What it stores at block index
  `(0, c', h, w)` is the block's entry plus, direction by direction, the bordered block's entry at `(c', h + dy, w + dx)`
  times the direction's plane at `(h, w)` — the generated value leg's `E2` — and the bordered block is the map's bordered
  plane (Padded.lean), so this is `fusedAt` at `(b, 32·cb + c', h, w)` (`E2_fused`, `out_fused`). Every point writes its
  block back, block `(b, cb)` of the result array holds exactly the indices `(b, 32·cb + c', h, w)`, and the 16 blocks
  cover the array: the array ends holding `fused` of the two arguments (`flushed_eq`, `cover`, `final`, `run`).
-/
import proofs.«105712_j52501680227014_1_alg».proof.Proof.Gen.KernelIdeal.Value
import proofs.«105712_j52501680227014_1_alg».proof.Proof.Padded
import Idealize.ShloMosaic.Lib.Pipeline.Value
import Idealize.ShloMosaic.Lib.ValueIdx

noncomputable section

namespace Cert.KernelIdeal.Block

open Cert.KernelIdeal Cert.KernelIdeal.Gen Cert.KernelIdeal.Value Cert.KernelIdeal.Padded Cert.Fusion
open Idealize.ShloMosaic Idealize.ShloMosaic.ValueIdx Idealize.ShloMosaic.TcCoe Idealize.SL.Sem
open Idealize.ShloMosaic.Pipeline (Dat)

variable {F : FTy → Type} [FloatOps F]

/-- The body's border entry: the float whose bits are all zero. -/
abbrev zk : F .f32 := Scalar.ofBits .f32 0x00000000#32

/-! ## One entry of the stored block -/

/-- Direction `d`'s plane as the body loads it out of the affinity block: the load's entry `(·, ·, h, w)` is the block's
    entry `(0, d, h, w)`. -/
theorem ld_plane (x1 : Vec F S1x8x256x256 .f32) (d : Fin 8)
    (inb : ∀ a, (![0, d.val, 0, 0] : Fin 4 → Nat) a + S1x1x256x256.size a ≤ S1x8x256x256.size a)
    (k : S1x1x256x256.Idx) (h w : Fin 256) (h2 : (k 2).val = h.val) (h3 : (k 3).val = w.val) :
    View.ld x1 (Rect.unit (s := S1x8x256x256) ![0, d.val, 0, 0] S1x1x256x256.size inb) k = x1 (ix4 0 d h w) := by
  have k0 : (k 0).val < 1 := (k 0).isLt
  have k1 : (k 1).val < 1 := (k 1).isLt
  refine congrArg x1 (funext fun a => Fin.ext ?_)
  match a with
  | ⟨0, _⟩ => show 0 + 1 * (k 0).val = 0; omega
  | ⟨1, _⟩ => show d.val + 1 * (k 1).val = d.val; omega
  | ⟨2, _⟩ => show 0 + 1 * (k 2).val = h.val; omega
  | ⟨3, _⟩ => show 0 + 1 * (k 3).val = w.val; omega

/-- THE STORED BLOCK'S ENTRY IS `fusedAt`: for loads `P0` (the feature block, whose plane `c'` is plane `C` of batch `b` of
    a map `X`) and `P1` … `P8` (the eight planes, direction `d`'s the plane `(b, d)` of `g`), the generated block function
    at an index of coordinates `(·, c', h, w)` is the fused result at `(b, C, h, w)`, the border's entry the body's zero. -/
theorem E2_fused (X : Feat.Idx → F .f32) (g : Aff.Idx → F .f32) (P0 : Vec F S1x32x256x256 .f32) (P1 : Vec F S1x1x256x256 .f32) (P2 : Vec F S1x1x256x256 .f32) (P3 : Vec F S1x1x256x256 .f32) (P4 : Vec F S1x1x256x256 .f32) (P5 : Vec F S1x1x256x256 .f32) (P6 : Vec F S1x1x256x256 .f32) (P7 : Vec F S1x1x256x256 .f32) (P8 : Vec F S1x1x256x256 .f32)
    (b : Fin 8) (C : Fin 64) (c' : Fin 32) (h w : Fin 256)
    (hP0 : ∀ h w : Fin 256, P0 (ix4 0 c' h w) = X (ix4 b C h w))
    (hP1 : ∀ k : S1x1x256x256.Idx, (k 2).val = h.val → (k 3).val = w.val → P1 k = g (ix4 b 0 h w))
    (hP2 : ∀ k : S1x1x256x256.Idx, (k 2).val = h.val → (k 3).val = w.val → P2 k = g (ix4 b 1 h w))
    (hP3 : ∀ k : S1x1x256x256.Idx, (k 2).val = h.val → (k 3).val = w.val → P3 k = g (ix4 b 2 h w))
    (hP4 : ∀ k : S1x1x256x256.Idx, (k 2).val = h.val → (k 3).val = w.val → P4 k = g (ix4 b 3 h w))
    (hP5 : ∀ k : S1x1x256x256.Idx, (k 2).val = h.val → (k 3).val = w.val → P5 k = g (ix4 b 4 h w))
    (hP6 : ∀ k : S1x1x256x256.Idx, (k 2).val = h.val → (k 3).val = w.val → P6 k = g (ix4 b 5 h w))
    (hP7 : ∀ k : S1x1x256x256.Idx, (k 2).val = h.val → (k 3).val = w.val → P7 k = g (ix4 b 6 h w))
    (hP8 : ∀ k : S1x1x256x256.Idx, (k 2).val = h.val → (k 3).val = w.val → P8 k = g (ix4 b 7 h w))
    (y : S1x32x256x256.Idx) (hy1 : (y 1).val = c'.val) (hy2 : (y 2).val = h.val) (hy3 : (y 3).val = w.val) :
    E2 P0 P1 P2 P3 P4 P5 P6 P7 P8 y = fusedAt zk X g b C h w := by
  have l0 : P0 (ix2_0 y) = X (ix4 b C h w) := by
    rw [← hP0 h w]
    exact congrArg P0 (funext fun a => match a with
      | ⟨0, _⟩ => rfl | ⟨1, _⟩ => Fin.ext hy1 | ⟨2, _⟩ => Fin.ext hy2 | ⟨3, _⟩ => Fin.ext hy3)
  have n0 : (k0_pay3 P0) (ix2_1 y) = bordered zk X b C (h.val) (w.val) :=
    pay3_at X P0 b c' C hP0 (ix2_1 y) _ _ hy1 hy2 hy3
  have n1 : (k0_pay3 P0) (ix2_3 y) = bordered zk X b C (h.val) (w.val + 1) :=
    pay3_at X P0 b c' C hP0 (ix2_3 y) _ _ hy1 hy2 (by show (y 3).val + 1 = w.val + 1; rw [hy3])
  have n2 : (k0_pay3 P0) (ix2_5 y) = bordered zk X b C (h.val) (w.val + 2) :=
    pay3_at X P0 b c' C hP0 (ix2_5 y) _ _ hy1 hy2 (by show (y 3).val + 2 = w.val + 2; rw [hy3])
  have n3 : (k0_pay3 P0) (ix2_7 y) = bordered zk X b C (h.val + 1) (w.val) :=
    pay3_at X P0 b c' C hP0 (ix2_7 y) _ _ hy1 (by show (y 2).val + 1 = h.val + 1; rw [hy2]) hy3
  have n4 : (k0_pay3 P0) (ix2_9 y) = bordered zk X b C (h.val + 1) (w.val + 2) :=
    pay3_at X P0 b c' C hP0 (ix2_9 y) _ _ hy1 (by show (y 2).val + 1 = h.val + 1; rw [hy2]) (by show (y 3).val + 2 = w.val + 2; rw [hy3])
  have n5 : (k0_pay3 P0) (ix2_11 y) = bordered zk X b C (h.val + 2) (w.val) :=
    pay3_at X P0 b c' C hP0 (ix2_11 y) _ _ hy1 (by show (y 2).val + 2 = h.val + 2; rw [hy2]) hy3
  have n6 : (k0_pay3 P0) (ix2_13 y) = bordered zk X b C (h.val + 2) (w.val + 1) :=
    pay3_at X P0 b c' C hP0 (ix2_13 y) _ _ hy1 (by show (y 2).val + 2 = h.val + 2; rw [hy2]) (by show (y 3).val + 1 = w.val + 1; rw [hy3])
  have n7 : (k0_pay3 P0) (ix2_15 y) = bordered zk X b C (h.val + 2) (w.val + 2) :=
    pay3_at X P0 b c' C hP0 (ix2_15 y) _ _ hy1 (by show (y 2).val + 2 = h.val + 2; rw [hy2]) (by show (y 3).val + 2 = w.val + 2; rw [hy3])
  have a0 : P1 (ix2_2 y) = g (ix4 b 0 h w) := hP1 (ix2_2 y) hy2 hy3
  have a1 : P2 (ix2_4 y) = g (ix4 b 1 h w) := hP2 (ix2_4 y) hy2 hy3
  have a2 : P3 (ix2_6 y) = g (ix4 b 2 h w) := hP3 (ix2_6 y) hy2 hy3
  have a3 : P4 (ix2_8 y) = g (ix4 b 3 h w) := hP4 (ix2_8 y) hy2 hy3
  have a4 : P5 (ix2_10 y) = g (ix4 b 4 h w) := hP5 (ix2_10 y) hy2 hy3
  have a5 : P6 (ix2_12 y) = g (ix4 b 5 h w) := hP6 (ix2_12 y) hy2 hy3
  have a6 : P7 (ix2_14 y) = g (ix4 b 6 h w) := hP7 (ix2_14 y) hy2 hy3
  have a7 : P8 (ix2_16 y) = g (ix4 b 7 h w) := hP8 (ix2_16 y) hy2 hy3
  unfold fusedAt contrib
  show FloatOps.addf (FloatOps.addf (FloatOps.addf (FloatOps.addf (FloatOps.addf (FloatOps.addf (FloatOps.addf (FloatOps.addf
      (P0 (ix2_0 y)) (FloatOps.mulf ((k0_pay3 P0) (ix2_1 y)) (P1 (ix2_2 y))))
      (FloatOps.mulf ((k0_pay3 P0) (ix2_3 y)) (P2 (ix2_4 y))))
      (FloatOps.mulf ((k0_pay3 P0) (ix2_5 y)) (P3 (ix2_6 y))))
      (FloatOps.mulf ((k0_pay3 P0) (ix2_7 y)) (P4 (ix2_8 y))))
      (FloatOps.mulf ((k0_pay3 P0) (ix2_9 y)) (P5 (ix2_10 y))))
      (FloatOps.mulf ((k0_pay3 P0) (ix2_11 y)) (P6 (ix2_12 y))))
      (FloatOps.mulf ((k0_pay3 P0) (ix2_13 y)) (P7 (ix2_14 y))))
      (FloatOps.mulf ((k0_pay3 P0) (ix2_15 y)) (P8 (ix2_16 y))) = _
  rw [l0, n0, a0, n1, a1, n2, a2, n3, a3, n4, a4, n5, a5, n6, a6, n7, a7]

theorem hz4 : (![0, 0, 0, 0] : Fin 4 → Nat) = fun _ => 0 := funext fun a => by fin_cases a <;> rfl

/-- The same for what the body leaves in the output's staging buffer, from the two blocks it is given. -/
theorem out_fused (X : Feat.Idx → F .f32) (g : Aff.Idx → F .f32) (x0 : Vec F S1x32x256x256 .f32) (x1 : Vec F S1x8x256x256 .f32)
    (b : Fin 8) (C : Fin 64) (c' : Fin 32) (h w : Fin 256)
    (hx0 : ∀ h w : Fin 256, x0 (ix4 0 c' h w) = X (ix4 b C h w))
    (hx1 : ∀ d : Fin 8, x1 (ix4 0 d h w) = g (ix4 b d h w))
    (y : S1x32x256x256.Idx) (hy1 : (y 1).val = c'.val) (hy2 : (y 2).val = h.val) (hy3 : (y 3).val = w.val) :
    out0_2 x0 x1 y = fusedAt zk X g b C h w := by
  unfold out0_2
  rw [canon2_eq]
  exact E2_fused X g _ _ _ _ _ _ _ _ _ b C c' h w
    (fun h w => by rw [View.ld_unit_zero (S := S1x32x256x256) hz4]; exact hx0 h w)
    (fun k h2 h3 => (ld_plane x1 0 _ k h w h2 h3).trans (hx1 0))
    (fun k h2 h3 => (ld_plane x1 1 _ k h w h2 h3).trans (hx1 1))
    (fun k h2 h3 => (ld_plane x1 2 _ k h w h2 h3).trans (hx1 2))
    (fun k h2 h3 => (ld_plane x1 3 _ k h w h2 h3).trans (hx1 3))
    (fun k h2 h3 => (ld_plane x1 4 _ k h w h2 h3).trans (hx1 4))
    (fun k h2 h3 => (ld_plane x1 5 _ k h w h2 h3).trans (hx1 5))
    (fun k h2 h3 => (ld_plane x1 6 _ k h w h2 h3).trans (hx1 6))
    (fun k h2 h3 => (ld_plane x1 7 _ k h w h2 h3).trans (hx1 7))
    y hy1 hy2 hy3

/-! ## From blocks to the array -/

variable (m : (ℓ : Loc nD τ sig) → Buf (Elt F) ℓ) (ρ : Dev nD → PrngReg)

/-- The three index maps over the 16 points: the feature block and the result block sit at block index `(b, cb, 0, 0)`, the
    affinity block at `(b, 0, 0, 0)`, with `b < 8` and `cb < 2`. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 8 ∧ win0_2.index t (1 : Fin 4) < 2 :=
  (by decide +kernel : ∀ t : Fin grid0.N, _)

/-- Every block index `(b, cb, 0, 0)` is some point's. -/
theorem idx_onto : ∀ (q0 : Fin 8) (q1 : Fin 2), ∃ t : Fin cfg0.N, win0_2.index t = ![q0.val, q1.val, 0, 0] :=
  (by decide +kernel : ∀ (q0 : Fin 8) (q1 : Fin 2), ∃ t : Fin grid0.N, win0_2.index t = ![q0.val, q1.val, 0, 0])

/-- WHAT POINT `t` WRITES BACK is block `t` of `fused` of the two argument arrays. -/
theorem flushed_eq (c : Dev nD) (t : Fin cfg0.N) :
    (dats m 0 c).flushed 2 t
      = ((cfg0.win 2).blk t).view.read (Elt F) (fused zk (V m c main_arg0) (V m c main_arg1)) := by
  rw [flushed2]
  obtain ⟨e00, e01, e02, e03, e10, e11, e12, e13, e22, e23, hb, hcb⟩ := idx_facts t
  funext y
  have y0 : (y 0).val < 1 := (y 0).isLt
  have y1 : (y 1).val < 32 := (y 1).isLt
  have y2 : (y 2).val < 256 := (y 2).isLt
  have y3 : (y 3).val < 256 := (y 3).isLt
  show out0_2 (iblk m c 0 t) (iblk m c 1 t) y
    = fused zk (V m c main_arg0) (V m c main_arg1) (((cfg0.win 2).blk t).view.emb y)
  have hi : ((cfg0.win 2).blk t).view.emb y
      = ix4 (⟨win0_2.index t (0 : Fin 4), hb⟩ : Fin 8) (⟨32 * win0_2.index t (1 : Fin 4) + (y 1).val, by omega⟩ : Fin 64)
          (⟨(y 2).val, y2⟩ : Fin 256) (⟨(y 3).val, y3⟩ : Fin 256) := by
    funext a; apply Fin.ext
    match a with
    | ⟨0, _⟩ => show win0_2.index t (0 : Fin 4) * 1 + 1 * (y 0).val = win0_2.index t (0 : Fin 4); omega
    | ⟨1, _⟩ => show win0_2.index t (1 : Fin 4) * 32 + 1 * (y 1).val = 32 * win0_2.index t (1 : Fin 4) + (y 1).val; omega
    | ⟨2, _⟩ => show win0_2.index t (2 : Fin 4) * 256 + 1 * (y 2).val = (y 2).val; omega
    | ⟨3, _⟩ => show win0_2.index t (3 : Fin 4) * 256 + 1 * (y 3).val = (y 3).val; omega
  rw [hi, fused_apply]
  refine out_fused (V m c main_arg0) (V m c main_arg1) (iblk m c 0 t) (iblk m c 1 t) _ _ (⟨(y 1).val, y1⟩ : Fin 32) _ _ ?_ ?_ y rfl rfl rfl
  · intro h w
    show V m c main_arg0 (((cfg0.win 0).blk t).view.emb (ix4 0 (⟨(y 1).val, y1⟩ : Fin 32) h w)) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 32 + 1 * (y 1).val = 32 * win0_2.index t (1 : Fin 4) + (y 1).val; omega
    | ⟨2, _⟩ => show win0_0.index t (2 : Fin 4) * 256 + 1 * h.val = h.val; omega
    | ⟨3, _⟩ => show win0_0.index t (3 : Fin 4) * 256 + 1 * w.val = w.val; omega
  · intro d
    show V m c main_arg1 (((cfg0.win 1).blk t).view.emb (ix4 0 d (⟨(y 2).val, y2⟩ : Fin 256) (⟨(y 3).val, y3⟩ : Fin 256))) = _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 8 + 1 * d.val = d.val; omega
    | ⟨2, _⟩ => show win0_1.index t (2 : Fin 4) * 256 + 1 * (y 2).val = (y 2).val; omega
    | ⟨3, _⟩ => show win0_1.index t (3 : Fin 4) * 256 + 1 * (y 3).val = (y 3).val; omega

/-- An index of the result array is in point `t`'s block iff each coordinate is in the block's range on its axis. -/
theorem mem_blk (t : Fin cfg0.N) (i : S8x64x256x256.Idx) :
    i ∈ ((cfg0.win 2).blk t).view.set ↔ ∀ a : Fin 4, win0_2.index t a * S1x32x256x256.size a ≤ (i a).val
      ∧ (i a).val < win0_2.index t a * S1x32x256x256.size a + S1x32x256x256.size a := by
  show i ∈ ((View.whole main_v0).slice (win0_2.rect t)).set ↔ _
  rw [View.set_slice_whole, Rect.mem_set_unit]
  exact Iff.rfl

/-- The 16 blocks cover the result array: index `(b, C, h, w)` is in the block of the point `(b, C / 32)`. -/
theorem cover (i : S8x64x256x256.Idx) :
    ∃ t : Fin cfg0.N, (cfg0.win 2).flush t = true ∧ i ∈ ((cfg0.win 2).blk t).view.set := by
  have i0 : (i 0).val < 8 := (i 0).isLt
  have i1 : (i 1).val < 64 := (i 1).isLt
  have i2 : (i 2).val < 256 := (i 2).isLt
  have i3 : (i 3).val < 256 := (i 3).isLt
  obtain ⟨t, ht⟩ := idx_onto ⟨(i 0).val, i0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE RESULT ARRAY after the run is `fused` of the two argument arrays as launched. -/
theorem final (c : Dev nD) :
    (dats m 0 c).arrAt 2 cfg0.N
      = fused zk (m ((c : Thread nD τ).loc main_arg0)) (m ((c : Thread nD τ).loc main_arg1)) :=
  (dats m 0 c).arrAt_eq_of_cover 2 (fused zk (V m c main_arg0) (V m c main_arg1)) (fun t _ => flushed_eq m c t) cover

/-- The kernel's run: every weakly fair execution terminates with the result array at `fused` of the arguments and the
    arguments unchanged. -/
theorem run : θ_run defs (onTc (τ := τ) (main (F := F))) ⟨m, fun _ => 0, ρ⟩ fun r => ∀ c : Dev nD,
      r.2.mem ((c : Thread nD τ).loc main_v0)
        = fused zk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Block

end
-- ==== Proof.RefFused.lean ====
/-
  The reference computes the function of Spec.lean.

  It pads the whole map by one entry on every side of every plane (the padding value the integer 0 converted to a float),
  and for each direction takes the slice of the padded map at the direction's offsets, multiplies it entry by entry with
  the direction's affinity plane (cut out of `g`, reshaped, and spread over the 64 channels) and adds the product onto the
  running result, starting from the map itself. Read at an index: the padded map is the bordered plane of Spec.lean
  (`pad_bordered`: inside the padding the operand, outside the padding value), a slice at offsets `(dy, dx)` reads it at
  `(h + dy, w + dx)` (`nbr0` … `nbr7`), the spread affinity plane of direction `d` reads `g b d h w` whatever the channel
  (`aff0` … `aff7`), and the chain of products and sums is `fusedAt`'s, term for term (`ref_fused`).
-/
import proofs.«105712_j52501680227014_1_alg».proof.Proof.Gen.ReferenceIdeal.Read
import proofs.«105712_j52501680227014_1_alg».proof.Proof.Spec
import Idealize.ShloMosaic.Lib.KernelVsHost
import Idealize.ShloMosaic.Lib.ValueIdx

noncomputable section

namespace Cert.ReferenceIdeal.Fused

open Cert.ReferenceIdeal Cert.ReferenceIdeal.Gen Cert.ReferenceIdeal.Read Cert.Fusion Idealize.ShloMosaic Idealize.ShloMosaic.ValueIdx

variable {F : FTy → Type} [FloatOps F]

/-! ## The padded map -/

/-- The padded map read at an index whose coordinates are `(b, c, r, s)` is the bordered plane `(b, c)` at `(r, s)`, the
    border's entry the converted integer zero: inside the padding on both axes the operand one row up and one column left,
    in the low or high padding of either axis the padding value. -/
theorem pad_bordered (x : Feat.Idx → F .f32) (j : S8x64x258x258.Idx) (b : Fin 8) (c : Fin 64) (r s : Nat)
    (h0 : (j 0).val = b.val) (h1 : (j 1).val = c.val) (h2 : (j 2).val = r) (h3 : (j 3).val = s) :
    val_main_v0 (F := F) x j = bordered (FloatOps.sitofp .f32 0#32) x b c r s := by
  have hr : (j 2).val < 258 := (j 2).isLt
  have hs : (j 3).val < 258 := (j 3).isLt
  unfold val_main_v0
  by_cases hb : r = 0 ∨ r = 257 ∨ s = 0 ∨ s = 257
  · rw [bordered_border _ _ _ _ _ _ (by omega)]
    by_cases hrow : r = 0 ∨ r = 257
    · exact pad_apply_of_not_inside ![0, 0, 1, 1] ![0, 0, 1, 1] ![0, 0, 0, 0] x _
        pads_S8x64x256x256_S8x64x258x258_000_000_110_110 h_S_ j 2
        (by show ¬(1 ≤ (j 2).val ∧ ((j 2).val - 1) % 1 = 0 ∧ ((j 2).val - 1) / 1 < 256); omega)
    · exact pad_apply_of_not_inside ![0, 0, 1, 1] ![0, 0, 1, 1] ![0, 0, 0, 0] x _
        pads_S8x64x256x256_S8x64x258x258_000_000_110_110 h_S_ j 3
        (by show ¬(1 ≤ (j 3).val ∧ ((j 3).val - 1) % 1 = 0 ∧ ((j 3).val - 1) / 1 < 256); omega)
  · have e := bordered_inside (FloatOps.sitofp .f32 0#32 : F .f32) x b c ⟨r - 1, by omega⟩ ⟨s - 1, by omega⟩
    rw [show (⟨r - 1, by omega⟩ : Fin 256).val + 1 = r from by show r - 1 + 1 = r; omega,
      show (⟨s - 1, by omega⟩ : Fin 256).val + 1 = s from by show s - 1 + 1 = s; omega] at e
    rw [e]
    exact pad_apply_of_inside ![0, 0, 1, 1] ![0, 0, 1, 1] ![0, 0, 0, 0] x _
      pads_S8x64x256x256_S8x64x258x258_000_000_110_110 h_S_ j (ix4 b c ⟨r - 1, by omega⟩ ⟨s - 1, by omega⟩)
      (fun a => match a with
        | ⟨0, _⟩ => by show (j 0).val = 0 + b.val * 1; omega
        | ⟨1, _⟩ => by show (j 1).val = 0 + c.val * 1; omega
        | ⟨2, _⟩ => by show (j 2).val = 1 + (r - 1) * 1; omega
        | ⟨3, _⟩ => by show (j 3).val = 1 + (s - 1) * 1; omega)

/-- Direction 0's neighbour: the slice of the bordered map at row offset 0, column offset 0. -/
theorem nbr0 (x : Feat.Idx → F .f32) (b : Fin 8) (c : Fin 64) (h w : Fin 256) :
    val_main_v1 (F := F) x (ix4 b c h w) = bordered (FloatOps.sitofp .f32 0#32) x b c (h.val) (w.val) := by
  rw [val_main_v1_apply]
  exact pad_bordered x _ b c (h.val) (w.val) rfl rfl
    (by show h.val = h.val; omega) (by show w.val = w.val; omega)

/-- Direction 1's neighbour: the slice of the bordered map at row offset 0, column offset 1. -/
theorem nbr1 (x : Feat.Idx → F .f32) (b : Fin 8) (c : Fin 64) (h w : Fin 256) :
    val_main_v8 (F := F) x (ix4 b c h w) = bordered (FloatOps.sitofp .f32 0#32) x b c (h.val) (w.val + 1) := by
  rw [val_main_v8_apply]
  exact pad_bordered x _ b c (h.val) (w.val + 1) rfl rfl
    (by show h.val = h.val; omega) (by show 1 + w.val = w.val + 1; omega)

/-- Direction 2's neighbour: the slice of the bordered map at row offset 0, column offset 2. -/
theorem nbr2 (x : Feat.Idx → F .f32) (b : Fin 8) (c : Fin 64) (h w : Fin 256) :
    val_main_v15 (F := F) x (ix4 b c h w) = bordered (FloatOps.sitofp .f32 0#32) x b c (h.val) (w.val + 2) := by
  rw [val_main_v15_apply]
  exact pad_bordered x _ b c (h.val) (w.val + 2) rfl rfl
    (by show h.val = h.val; omega) (by show 2 + w.val = w.val + 2; omega)

/-- Direction 3's neighbour: the slice of the bordered map at row offset 1, column offset 0. -/
theorem nbr3 (x : Feat.Idx → F .f32) (b : Fin 8) (c : Fin 64) (h w : Fin 256) :
    val_main_v22 (F := F) x (ix4 b c h w) = bordered (FloatOps.sitofp .f32 0#32) x b c (h.val + 1) (w.val) := by
  rw [val_main_v22_apply]
  exact pad_bordered x _ b c (h.val + 1) (w.val) rfl rfl
    (by show 1 + h.val = h.val + 1; omega) (by show w.val = w.val; omega)

/-- Direction 4's neighbour: the slice of the bordered map at row offset 1, column offset 2. -/
theorem nbr4 (x : Feat.Idx → F .f32) (b : Fin 8) (c : Fin 64) (h w : Fin 256) :
    val_main_v29 (F := F) x (ix4 b c h w) = bordered (FloatOps.sitofp .f32 0#32) x b c (h.val + 1) (w.val + 2) := by
  rw [val_main_v29_apply]
  exact pad_bordered x _ b c (h.val + 1) (w.val + 2) rfl rfl
    (by show 1 + h.val = h.val + 1; omega) (by show 2 + w.val = w.val + 2; omega)

/-- Direction 5's neighbour: the slice of the bordered map at row offset 2, column offset 0. -/
theorem nbr5 (x : Feat.Idx → F .f32) (b : Fin 8) (c : Fin 64) (h w : Fin 256) :
    val_main_v36 (F := F) x (ix4 b c h w) = bordered (FloatOps.sitofp .f32 0#32) x b c (h.val + 2) (w.val) := by
  rw [val_main_v36_apply]
  exact pad_bordered x _ b c (h.val + 2) (w.val) rfl rfl
    (by show 2 + h.val = h.val + 2; omega) (by show w.val = w.val; omega)

/-- Direction 6's neighbour: the slice of the bordered map at row offset 2, column offset 1. -/
theorem nbr6 (x : Feat.Idx → F .f32) (b : Fin 8) (c : Fin 64) (h w : Fin 256) :
    val_main_v43 (F := F) x (ix4 b c h w) = bordered (FloatOps.sitofp .f32 0#32) x b c (h.val + 2) (w.val + 1) := by
  rw [val_main_v43_apply]
  exact pad_bordered x _ b c (h.val + 2) (w.val + 1) rfl rfl
    (by show 2 + h.val = h.val + 2; omega) (by show 1 + w.val = w.val + 1; omega)

/-- Direction 7's neighbour: the slice of the bordered map at row offset 2, column offset 2. -/
theorem nbr7 (x : Feat.Idx → F .f32) (b : Fin 8) (c : Fin 64) (h w : Fin 256) :
    val_main_v50 (F := F) x (ix4 b c h w) = bordered (FloatOps.sitofp .f32 0#32) x b c (h.val + 2) (w.val + 2) := by
  rw [val_main_v50_apply]
  exact pad_bordered x _ b c (h.val + 2) (w.val + 2) rfl rfl
    (by show 2 + h.val = h.val + 2; omega) (by show 2 + w.val = w.val + 2; omega)

/-! ## The affinity planes -/

/-- An array read at an index is the array read at the index of the same coordinates. -/
theorem aff_ext (g : Aff.Idx → F .f32) (k : Aff.Idx) (b : Fin 8) (d : Fin 8) (h w : Fin 256)
    (h0 : (k 0).val = b.val) (h1 : (k 1).val = d.val) (h2 : (k 2).val = h.val) (h3 : (k 3).val = w.val) :
    g k = g (ix4 b d h w) :=
  congrArg g (funext fun a => match a with
    | ⟨0, _⟩ => Fin.ext h0 | ⟨1, _⟩ => Fin.ext h1 | ⟨2, _⟩ => Fin.ext h2 | ⟨3, _⟩ => Fin.ext h3)

/-- Direction 0's affinity plane, spread over the 64 channels. -/
theorem aff0 (g : Aff.Idx → F .f32) (b : Fin 8) (c : Fin 64) (h w : Fin 256) :
    val_main_v5 (F := F) g (ix4 b c h w) = g (ix4 b 0 h w) := by
  have hb : b.val < 8 := b.isLt
  have hh : h.val < 256 := h.isLt
  have hw : w.val < 256 := w.isLt
  rw [val_main_v5_apply, val_main_v4_apply, val_main_v3_apply, val_main_v2_apply]
  exact aff_ext g _ b 0 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 1's affinity plane, spread over the 64 channels. -/
theorem aff1 (g : Aff.Idx → F .f32) (b : Fin 8) (c : Fin 64) (h w : Fin 256) :
    val_main_v12 (F := F) g (ix4 b c h w) = g (ix4 b 1 h w) := by
  have hb : b.val < 8 := b.isLt
  have hh : h.val < 256 := h.isLt
  have hw : w.val < 256 := w.isLt
  rw [val_main_v12_apply, val_main_v11_apply, val_main_v10_apply, val_main_v9_apply]
  exact aff_ext g _ b 1 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 2's affinity plane, spread over the 64 channels. -/
theorem aff2 (g : Aff.Idx → F .f32) (b : Fin 8) (c : Fin 64) (h w : Fin 256) :
    val_main_v19 (F := F) g (ix4 b c h w) = g (ix4 b 2 h w) := by
  have hb : b.val < 8 := b.isLt
  have hh : h.val < 256 := h.isLt
  have hw : w.val < 256 := w.isLt
  rw [val_main_v19_apply, val_main_v18_apply, val_main_v17_apply, val_main_v16_apply]
  exact aff_ext g _ b 2 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 3's affinity plane, spread over the 64 channels. -/
theorem aff3 (g : Aff.Idx → F .f32) (b : Fin 8) (c : Fin 64) (h w : Fin 256) :
    val_main_v26 (F := F) g (ix4 b c h w) = g (ix4 b 3 h w) := by
  have hb : b.val < 8 := b.isLt
  have hh : h.val < 256 := h.isLt
  have hw : w.val < 256 := w.isLt
  rw [val_main_v26_apply, val_main_v25_apply, val_main_v24_apply, val_main_v23_apply]
  exact aff_ext g _ b 3 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 4's affinity plane, spread over the 64 channels. -/
theorem aff4 (g : Aff.Idx → F .f32) (b : Fin 8) (c : Fin 64) (h w : Fin 256) :
    val_main_v33 (F := F) g (ix4 b c h w) = g (ix4 b 4 h w) := by
  have hb : b.val < 8 := b.isLt
  have hh : h.val < 256 := h.isLt
  have hw : w.val < 256 := w.isLt
  rw [val_main_v33_apply, val_main_v32_apply, val_main_v31_apply, val_main_v30_apply]
  exact aff_ext g _ b 4 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 5's affinity plane, spread over the 64 channels. -/
theorem aff5 (g : Aff.Idx → F .f32) (b : Fin 8) (c : Fin 64) (h w : Fin 256) :
    val_main_v40 (F := F) g (ix4 b c h w) = g (ix4 b 5 h w) := by
  have hb : b.val < 8 := b.isLt
  have hh : h.val < 256 := h.isLt
  have hw : w.val < 256 := w.isLt
  rw [val_main_v40_apply, val_main_v39_apply, val_main_v38_apply, val_main_v37_apply]
  exact aff_ext g _ b 5 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 6's affinity plane, spread over the 64 channels. -/
theorem aff6 (g : Aff.Idx → F .f32) (b : Fin 8) (c : Fin 64) (h w : Fin 256) :
    val_main_v47 (F := F) g (ix4 b c h w) = g (ix4 b 6 h w) := by
  have hb : b.val < 8 := b.isLt
  have hh : h.val < 256 := h.isLt
  have hw : w.val < 256 := w.isLt
  rw [val_main_v47_apply, val_main_v46_apply, val_main_v45_apply, val_main_v44_apply]
  exact aff_ext g _ b 6 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-- Direction 7's affinity plane, spread over the 64 channels. -/
theorem aff7 (g : Aff.Idx → F .f32) (b : Fin 8) (c : Fin 64) (h w : Fin 256) :
    val_main_v54 (F := F) g (ix4 b c h w) = g (ix4 b 7 h w) := by
  have hb : b.val < 8 := b.isLt
  have hh : h.val < 256 := h.isLt
  have hw : w.val < 256 := w.isLt
  rw [val_main_v54_apply, val_main_v53_apply, val_main_v52_apply, val_main_v51_apply]
  exact aff_ext g _ b 7 h w
    (by show ((b.val * 256 + h.val) * 256 + w.val) / 65536 = b.val; omega) rfl
    (by show ((b.val * 256 + h.val) * 256 + w.val) / 256 % 256 = h.val; omega)
    (by show ((b.val * 256 + h.val) * 256 + w.val) % 256 = w.val; omega)

/-! ## The whole reference -/

/-- THE REFERENCE'S RESULT is `fused` of its two arguments, the border's entry the converted integer zero. -/
theorem ref_fused (x : Feat.Idx → F .f32) (g : Aff.Idx → F .f32) :
    val_main_v56 (F := F) x g = fused (FloatOps.sitofp .f32 0#32) x g := by
  funext i
  obtain ⟨b, c, h, w, rfl⟩ : ∃ (b : Fin 8) (c : Fin 64) (h w : Fin 256), i = ix4 b c h w := ⟨i 0, i 1, i 2, i 3, eq_ix4 i⟩
  rw [fused_apply]
  unfold fusedAt contrib
  rw [val_main_v56_apply, val_main_v49_apply, val_main_v42_apply, val_main_v35_apply, val_main_v28_apply, val_main_v21_apply, val_main_v14_apply, val_main_v7_apply,
    val_main_v6_apply, val_main_v13_apply, val_main_v20_apply, val_main_v27_apply, val_main_v34_apply, val_main_v41_apply, val_main_v48_apply, val_main_v55_apply,
    nbr0, aff0, nbr1, aff1, nbr2, aff2, nbr3, aff3, nbr4, aff4, nbr5, aff5, nbr6, aff6, nbr7, aff7]

end Cert.ReferenceIdeal.Fused

end
-- ==== Proof.lean ====
/-
  Neighbour fusion of a feature map with eight affinity planes: a tiled kernel against the whole-array reference.

  For a feature map `x` of shape [8, 64, 256, 256] and affinity planes `g` of shape [8, 8, 256, 256] both programs compute

      out b c h w = x b c h w + Σ_d  xpad b c (h + dy_d) (w + dx_d) · g b d h w,

  where `xpad` is `x` with a border of one zero around every 256 × 256 plane and `(dy_d, dx_d)` runs over the eight
  neighbours (0,0) (0,1) (0,2) (1,0) (1,2) (2,0) (2,1) (2,2) of the centre (1,1), the products added one after the other in
  that order (Spec.lean: `fused`).

  The kernel works on 16 blocks of 32 planes: at each grid point it borders its block by concatenating rows and columns of
  zeros (Padded.lean reads the bordered block at an index), forms the eight shifted products and stores the block; the
  blocks tile the result array (Block.lean: `run`). The reference pads the whole array with the integer 0 converted to a
  float, slices, multiplies and adds (RefFused.lean: `ref_fused`). The two spell the SAME sum in the SAME order at every
  index, so no law of arithmetic — and no finiteness of the inputs — is needed to join them: the only thing to compare is
  the border's entry, the float of zero bits on one side and the converted integer 0 on the other, both the real number 0
  at the extended reals (`zero_eq`).

  The three frames are the generated ones (the reference's its generated run with the result dropped), and the kernel's
  idealization rewrote no operation, so `preserves` has nothing to state.
-/
import proofs.«105712_j52501680227014_1_alg».proof.Defs
import proofs.«105712_j52501680227014_1_alg».proof.Proof.Gen.Kernel
import proofs.«105712_j52501680227014_1_alg».proof.Proof.Gen.Kernel.Skeleton
import proofs.«105712_j52501680227014_1_alg».proof.Proof.Gen.Kernel.Launch
import proofs.«105712_j52501680227014_1_alg».proof.Proof.Gen.Kernel.Points
import proofs.«105712_j52501680227014_1_alg».proof.Proof.Gen.Kernel.Frame
import proofs.«105712_j52501680227014_1_alg».proof.Proof.Gen.KernelIdeal
import proofs.«105712_j52501680227014_1_alg».proof.Proof.Gen.KernelIdeal.Skeleton
import proofs.«105712_j52501680227014_1_alg».proof.Proof.Gen.KernelIdeal.Launch
import proofs.«105712_j52501680227014_1_alg».proof.Proof.Gen.KernelIdeal.Points
import proofs.«105712_j52501680227014_1_alg».proof.Proof.Gen.KernelIdeal.Frame
import proofs.«105712_j52501680227014_1_alg».proof.Proof.Gen.ReferenceIdeal
import proofs.«105712_j52501680227014_1_alg».proof.Proof.Gen.KernelIdeal.Value
import proofs.«105712_j52501680227014_1_alg».proof.Proof.Gen.ReferenceIdeal.Run
import proofs.«105712_j52501680227014_1_alg».proof.Proof.Gen.ReferenceIdeal.Read
import proofs.«105712_j52501680227014_1_alg».proof.Proof.Gen.Pre_finite_inputs
import proofs.«105712_j52501680227014_1_alg».proof.Proof.Block
import proofs.«105712_j52501680227014_1_alg».proof.Proof.RefFused
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem Cert.Fusion

/-- At the extended reals the kernel's border entry (the float of zero bits) and the reference's (the integer 0 converted)
    are one number: the real 0. -/
theorem zero_eq : (Scalar.ofBits .f32 0x00000000#32 : Ideal .f32) = FloatOps.sitofp (F := Ideal) .f32 (0#32 : BitVec 32) := by
  show Ideal.ofBits .f32 0x00000000#32 = (((0#32 : BitVec 32).toInt : ℝ) : EReal)
  rw [Ideal.ofBits_zero_f32]
  simp

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at `fused` of the (agreeing) arguments: the kernel's by its blocks, the reference's
    by its operations read at an index, the two border entries equal at the extended reals. -/
theorem algebraic : Cert.algebraic_KernelIdeal_ReferenceIdeal := by
  intro m ρ m' ρ' _ hagree
  refine ⟨_, Cert.KernelIdeal.Block.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v56_eq m' c).trans ((Cert.ReferenceIdeal.Fused.ref_fused _ _).trans ?_)
  rw [(hagree c).1, (hagree c).2]
  exact congrArg (fun z => fused z _ _) zero_eq.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
